-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S2x128 : Shape := ⟨2, ![2, 128]⟩
abbrev S128 : Shape := ⟨1, ![128]⟩
abbrev S128x128 : Shape := ⟨2, ![128, 128]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x2 .f32) (main_arg1 : IVec S2x1600000 32) (main_arg2 : FVec F S2x128 .f32) (main_arg3 : FVec F S2x128 .f32) (main_arg4 : FVec F S128 .f32) (main_arg5 : FVec F S128x128 .f32) (main_arg6 : FVec F S128x128 .f32) (main_arg7 : FVec F S128 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x2 : Shape := ⟨2, ![100000, 2]⟩
abbrev S2x1600000 : Shape := ⟨2, ![2, 1600000]⟩
abbrev S2x128 : Shape := ⟨2, ![2, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x2 : Shape := ⟨2, ![1600000, 2]⟩
abbrev S100000x1 : Shape := ⟨2, ![100000, 1]⟩
abbrev S100000x128 : Shape := ⟨2, ![100000, 128]⟩
abbrev S5000x2 : Shape := ⟨2, ![5000, 2]⟩
abbrev S5000x128 : Shape := ⟨2, ![5000, 128]⟩
abbrev S1x128 : Shape := ⟨2, ![1, 128]⟩
abbrev S1600000x128 : Shape := ⟨2, ![1600000, 128]⟩

abbrev nBuf : Space → Nat
  | .hbm => 58
  | .vmem => 18
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x128, .f32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x2, .f32⟩
  | .hbm, ⟨33, _⟩ => ⟨S_, .f32⟩
  | .hbm, ⟨34, _⟩ => ⟨S100000x2, .f32⟩
  | .hbm, ⟨35, _⟩ => ⟨S1600000x1, .i32⟩
  | .hbm, ⟨36, _⟩ => ⟨S100000x2, .f32⟩
  | .hbm, ⟨37, _⟩ => ⟨S100000x1, .f32⟩
  | .hbm, ⟨38, _⟩ => ⟨S100000x2, .f32⟩
  | .hbm, ⟨39, _⟩ => ⟨S100000x2, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .local _ .vmem, ⟨0, _⟩ => ⟨S5000x2, .f32⟩
  | .local _ .vmem, ⟨1, _⟩ => ⟨S5000x2, .f32⟩
  | .local _ .vmem, ⟨2, _⟩ => ⟨S5000x2, .f32⟩
  | .local _ .vmem, ⟨3, _⟩ => ⟨S5000x2, .f32⟩
  | .local _ .vmem, ⟨4, _⟩ => ⟨S2x128, .f32⟩
  | .local _ .vmem, ⟨5, _⟩ => ⟨S2x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S5000x2_S2x128_S5000x128_1_0_0_1_n_n_wf : DotDims.WF S5000x2 S2x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S5000x2_S2x128_S5000x128_1_0_0_1_n_n : DotDims S5000x2 S2x128 S5000x128 where
  lhsContracting := [1]
  rhsContracting := [0]
  lhsNonContracting := [0]
  rhsNonContracting := [1]
  lhsBatch := []
  rhsBatch := []
  wf := dot_S5000x2_S2x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S2x128 : Shape := ⟨2, ![2, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x128, .f32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x2, .f32⟩
  | .hbm, ⟨21, _⟩ => ⟨S_, .f32⟩
  | .hbm, ⟨22, _⟩ => ⟨S100000x2, .f32⟩
  | .hbm, ⟨23, _⟩ => ⟨S1600000x1, .i32⟩
  | .hbm, ⟨24, _⟩ => ⟨S100000x2, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x2, .f32⟩
  | .hbm, ⟨36, _⟩ => ⟨S100000x2, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  scatter_S100000_S1600000x1_S1600000_n_0_0_1_wf : ScatterDims.WF S100000 S1600000x1 S1600000 [] [0] [0] 1
  dot_S100000x2_S2x128_S100000x128_1_0_0_1_n_n_wf : DotDims.WF S100000x2 S2x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the idealized kernel program with its result named.

  @main is four segments: host operations, the first layer's pallas_call over 20 row blocks, host operations, the second
  layer's pallas_call over 20 row blocks. Every weakly fair execution from a memory with zero counters terminates
  without a fault, and in the final state every buffer outside the kernels' scratch holds what the fold of the four
  segments leaves in it. Read at the eight arguments this is the frame (no segment writes an argument); read at the
  program's result buffer it names the result: the last region's output array as its write-backs leave it.
-/
import proofs.«148940_j29858612642203_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at what the fold of the
    four segments leaves there, and the eight argument arrays end as launched. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageRun

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibLayerEntry.lean ====
/-
  One layer's linear combine, read at an entry.

  For aggregated rows A and root rows H of shape [M, K], weights Wl, Wr of shape [K, N] and a bias b of shape [N], the
  layer computes  A · Wl + H · Wr + b,  the bias added to every row. Entry (p, q) is

      (∑ₖ A(p, k) · Wl(k, q) + ∑ₖ H(p, k) · Wr(k, q)) + b(q),     k over Fin K,

  with the two sums added first and the bias last. A kernel spells it with two matrix-unit products of operands narrowed
  to bf16 (the narrowing is the identity on ideal values), each into a zero accumulator, and the bias as a one-row
  array spread down the rows; a host program spells it with two dot_generals and the bias placed on axis 1 of a
  one-row array that is then spread on both axes. Both are the expression above, general in the three extents.
  Since entry (p, q) reads row p of A and of H only, rows of a block are rows of the whole array.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«148940_j29858612642203_1_alg».proof.Proof.LibPlainDot

noncomputable section

namespace SageLayer

open Idealize.ShloMosaic Idealize.ShloMosaic.ValueIdx

/-- Entry (p, q) of A · Wl + H · Wr + b. -/
def combine {M K N : ℕ} (A H : (⟨2, ![M, K]⟩ : Shape).Idx → EReal) (Wl Wr : (⟨2, ![K, N]⟩ : Shape).Idx → EReal)
    (b : (⟨1, ![N]⟩ : Shape).Idx → EReal) (p : Fin M) (q : Fin N) : EReal :=
  (∑ k : Fin K, A (ix2 p k) * Wl (ix2 k q) + ∑ k : Fin K, H (ix2 p k) * Wr (ix2 k q)) + b (ix1 q)

/-- Entry (p, q) reads row p of the two row arrays, column q of the two weights and entry q of the bias, and nothing
    else: if those are row P, column Q and entry Q of other arrays (a block against the array it was cut from), the
    entries agree. -/
theorem combine_congr {M M' K N N' : ℕ} (A H : (⟨2, ![M, K]⟩ : Shape).Idx → EReal) (A' H' : (⟨2, ![M', K]⟩ : Shape).Idx → EReal)
    (Wl Wr : (⟨2, ![K, N]⟩ : Shape).Idx → EReal) (Wl' Wr' : (⟨2, ![K, N']⟩ : Shape).Idx → EReal)
    (b : (⟨1, ![N]⟩ : Shape).Idx → EReal) (b' : (⟨1, ![N']⟩ : Shape).Idx → EReal)
    (p : Fin M) (P : Fin M') (q : Fin N) (Q : Fin N')
    (hA : ∀ k, A (ix2 p k) = A' (ix2 P k)) (hH : ∀ k, H (ix2 p k) = H' (ix2 P k))
    (hWl : ∀ k, Wl (ix2 k q) = Wl' (ix2 k Q)) (hWr : ∀ k, Wr (ix2 k q) = Wr' (ix2 k Q))
    (hb : b (ix1 q) = b' (ix1 Q)) :
    combine A H Wl Wr b p q = combine A' H' Wl' Wr' b' P Q := by
  unfold combine
  simp only [hA, hH, hWl, hWr, hb]

/-- The kernel's spelling: two products of bf16-narrowed operands into zero accumulators, added, plus the bias as a
    one-row array spread down the rows. -/
theorem kernel_combine_apply {M K N : ℕ} (d : DotDims ⟨2, ![M, K]⟩ ⟨2, ![K, N]⟩ ⟨2, ![M, N]⟩) (hd : d = DotDims.plain M K N)
    (A H : FVec Ideal ⟨2, ![M, K]⟩ .f32) (Wl Wr : FVec Ideal ⟨2, ![K, N]⟩ .f32) (b : FVec Ideal ⟨1, ![N]⟩ .f32)
    (hbits : FTy.bf16.bits < FTy.f32.bits)
    (h1 : (⟨1, ![N]⟩ : Shape).ShapeCasts ⟨2, ![1, N]⟩) (hb : (⟨2, ![1, N]⟩ : Shape).Broadcasts ⟨2, ![M, N]⟩)
    (p : Fin M) (q : Fin N) :
    addf (addf (matmul d none (truncf .bf16 A hbits) (truncf .bf16 Wl hbits) (constant ⟨2, ![M, N]⟩ .f32 0x00000000#32))
               (matmul d none (truncf .bf16 H hbits) (truncf .bf16 Wr hbits) (constant ⟨2, ![M, N]⟩ .f32 0x00000000#32)))
         (broadcastTo ⟨2, ![M, N]⟩ (shapeCast ⟨2, ![1, N]⟩ b h1) hb) (ix2 p q)
      = combine A H Wl Wr b p q := by
  show (FloatOps.matmul d none (truncf .bf16 A hbits) (truncf .bf16 Wl hbits) (constant ⟨2, ![M, N]⟩ .f32 0x00000000#32) (ix2 p q)
        + FloatOps.matmul d none (truncf .bf16 H hbits) (truncf .bf16 Wr hbits) (constant ⟨2, ![M, N]⟩ .f32 0x00000000#32) (ix2 p q))
      + broadcastTo ⟨2, ![M, N]⟩ (shapeCast ⟨2, ![1, N]⟩ b h1) hb (ix2 p q) = _
  rw [matmul_plain_zero_apply d hd, matmul_plain_zero_apply d hd, broadcastTo_1b_ab_apply, shapeCast_a_1a_apply]
  rfl

/-- A bias vector placed on axis 1 of a one-row array that is then spread on both axes, at entry (p, q): entry q. -/
theorem hostBias_apply {M N : ℕ} (b : (⟨1, ![N]⟩ : Shape).Idx → EReal)
    (hr : (⟨1, ![N]⟩ : Shape).BroadcastsInDim ⟨2, ![1, N]⟩ ![1])
    (hbc : (⟨2, ![1, N]⟩ : Shape).BroadcastsInDim ⟨2, ![M, N]⟩ ![0, 1]) (p : Fin M) (q : Fin N) :
    broadcastInDim ⟨2, ![M, N]⟩ ![0, 1] hbc (broadcastInDim ⟨2, ![1, N]⟩ ![1] hr b) (ix2 p q) = b (ix1 q) := by
  rw [broadcastInDim_oneRow_apply]
  refine broadcastInDim_apply ![1] hr b (ix2 (0 : Fin 1) q) (ix1 q) fun a => ?_
  match a with
  | ⟨0, _⟩ =>
    show q.val = if N = 1 then 0 else q.val
    split
    · have := q.isLt; omega
    · rfl

/-- The host's spelling: two dot_generals, added, plus the bias placed on a one-row array and spread on both axes. -/
theorem host_combine_apply {M K N : ℕ} (d : DotDims ⟨2, ![M, K]⟩ ⟨2, ![K, N]⟩ ⟨2, ![M, N]⟩) (hd : d = DotDims.plain M K N)
    (A H : FVec Ideal ⟨2, ![M, K]⟩ .f32) (Wl Wr : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) (p : Fin M) (q : Fin N) :
    addf (addf (Host.dotGeneral d none A Wl) (Host.dotGeneral d none H Wr))
         (broadcastInDim ⟨2, ![M, N]⟩ ![0, 1] hbc (broadcastInDim ⟨2, ![1, N]⟩ ![1] hr b)) (ix2 p q)
      = combine A H Wl Wr b p q := by
  show (FloatOps.dotGeneral d none .single A Wl (ix2 p q) + FloatOps.dotGeneral d none .single H Wr (ix2 p q))
      + broadcastInDim ⟨2, ![M, N]⟩ ![0, 1] hbc (broadcastInDim ⟨2, ![1, N]⟩ ![1] hr b) (ix2 p q) = _
  rw [dotGeneral_plain_apply d hd, dotGeneral_plain_apply d hd, hostBias_apply]
  rfl

end SageLayer

end
-- ==== Proof.Region0.lean ====
/-
  What the first layer's pallas_call leaves in its output array.

  The call runs over 20 grid points; point t stages rows 5000·t … 5000·t + 4999 of the aggregated rows A [100000, 2] and of
  the features X [100000, 2], the whole of the two weights [2, 128] and of the bias [128], and writes back rows
  5000·t … 5000·t + 4999 of the output [100000, 128]. The body stores, at entry (p, q) of its block, the maximum with zero of
  the layer's combine of row p of the two staged row blocks. Row p of block t is row 5000·t + p of the array, the 20
  row blocks tile the output, so the output array ends holding, at every (P, q),

      max((∑ₖ A(P, k) · Wl(k, q) + ∑ₖ X(P, k) · Wr(k, q)) + b(q), 0).

  Stated at whatever the region finds in its operands' arrays when it is entered.
-/
import proofs.«148940_j29858612642203_1_alg».proof.Proof.Gen.KernelIdeal.Frame
import proofs.«148940_j29858612642203_1_alg».proof.Proof.LibLayerEntry
import Idealize.ShloMosaic.Lib.Pipeline.Value
import Idealize.ShloMosaic.Lib.ValueIdx

set_option maxRecDepth 16384

noncomputable section

namespace Cert.KernelIdeal.SageRegion0

open Cert.KernelIdeal Cert.KernelIdeal.Gen Idealize.ShloMosaic Idealize.ShloMosaic.TcCoe Idealize.SL.Sem
open Idealize.ShloMosaic.ValueIdx SageLayer
open Idealize.ShloMosaic.Pipeline (Dat)

/-! ## The body's stored value at an entry -/

/-- Entry (p, q) of what the body stores: the maximum with zero of the combine of row p of its two row blocks. -/
theorem pay_apply (x0 x1 : Vec Ideal S5000x2 .f32) (x2 x3 : Vec Ideal S2x128 .f32) (x4 : Vec Ideal S128 .f32)
    (p : Fin 5000) (q : Fin 128) :
    k0_pay1 x0 x1 x2 x3 x4 (ix2 p q) = max (combine x0 x1 x2 x3 x4 p q) (Ideal.ofBits .f32 0x00000000#32) := by
  rw [← kernel_combine_apply dot_S5000x2_S2x128_S5000x128_1_0_0_1_n_n rfl x0 x1 x2 x3 x4 bitsLt_bf16_f32
    shapeCasts_S128_S1x128 broadcasts_S1x128_S5000x128 p q]
  unfold k0_pay1
  rw [shapeCast_self]
  rfl

/-! ## The output array as one function of the operands' arrays -/

/-- The first layer at every entry: the maximum with zero of the combine of the aggregated rows and the features. -/
def layer1 (A X : S100000x2.Idx → EReal) (Wl Wr : S2x128.Idx → EReal) (b : S128.Idx → EReal) : S100000x128.Idx → EReal :=
  fun i => max (combine A X Wl Wr b (i 0) (i 1)) (Ideal.ofBits .f32 0x00000000#32)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 points: the two row windows and the output move to row block t, the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every row block of the output is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

variable (V : (c : Dev nD) → (b : Ref sig .tc) → Buf (Elt Ideal) ((c : Thread nD τ).loc b))

/-- What point t writes back is block t of the first layer of the arrays the region finds. -/
theorem flushed_eq (c : Dev nD) (t : Fin cfg0.N) :
    (dat0 V c).flushed 5 t = ((cfg0.win 5).blk t).view.read (Elt Ideal)
      (layer1 (V c main_v24) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x2) hz2, View.ld_unit_zero (S := S2x128) hz2, View.ld_unit_zero (S := S128) hz1]
  obtain ⟨e00, e01, e10, e11, e20, e21, e30, e31, e40, e50, e51⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  rw [View.read_apply]
  -- row p of block t is row 5000·t + p of the array; the column is unchanged
  have hp : t.val * 5000 + p.val < 100000 := by have := p.isLt; omega
  have h5 : ((cfg0.win 5).blk t).view.emb (ix2 p q) = ix2 (⟨t.val * 5000 + p.val, hp⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [h5]
  show k0_pay1 (iblk0 V c 0 t) (iblk0 V c 1 t) (iblk0 V c 2 t) (iblk0 V c 3 t) (iblk0 V c 4 t) (ix2 p q)
    = max (combine (V c main_v24) (V c main_arg0) (V c main_arg2) (V c main_arg3) (V c main_arg4)
        (⟨t.val * 5000 + p.val, hp⟩ : Fin 100000) q) (Ideal.ofBits .f32 0x00000000#32)
  refine (pay_apply (iblk0 V c 0 t) (iblk0 V c 1 t) (iblk0 V c 2 t) (iblk0 V c 3 t) (iblk0 V c 4 t) p q).trans ?_
  refine congrArg (max · (Ideal.ofBits .f32 0x00000000#32)) ?_
  -- each staged block read where the output's entry says
  have r0 : ∀ k : Fin 2, iblk0 V c 0 t (ix2 p k) = V c main_v24 (ix2 (⟨t.val * 5000 + p.val, hp⟩ : Fin 100000) k) := fun k => by
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = t.val * 5000 + p.val; omega
    | ⟨1, _⟩ => show win0_0.index t (1 : Fin 2) * 2 + 1 * k.val = k.val; omega
  have r1 : ∀ k : Fin 2, iblk0 V c 1 t (ix2 p k) = V c main_arg0 (ix2 (⟨t.val * 5000 + p.val, hp⟩ : Fin 100000) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 2 + 1 * k.val = k.val; omega
  have r2 : ∀ k : Fin 2, iblk0 V c 2 t (ix2 k q) = V c main_arg2 (ix2 k q) := fun k => by
    show V c main_arg2 (((cfg0.win 2).blk t).view.emb (ix2 k q)) = _
    refine congrArg (V c main_arg2) (funext fun a => Fin.ext ?_)
    match a with
    | ⟨0, _⟩ => show win0_2.index t (0 : Fin 2) * 2 + 1 * k.val = k.val; omega
    | ⟨1, _⟩ => show win0_2.index t (1 : Fin 2) * 128 + 1 * q.val = q.val; omega
  have r3 : ∀ k : Fin 2, iblk0 V c 3 t (ix2 k q) = V c main_arg3 (ix2 k q) := fun k => by
    show V c main_arg3 (((cfg0.win 3).blk t).view.emb (ix2 k q)) = _
    refine congrArg (V c main_arg3) (funext fun a => Fin.ext ?_)
    match a with
    | ⟨0, _⟩ => show win0_3.index t (0 : Fin 2) * 2 + 1 * k.val = k.val; omega
    | ⟨1, _⟩ => show win0_3.index t (1 : Fin 2) * 128 + 1 * q.val = q.val; omega
  have r4 : iblk0 V c 4 t (ix1 q) = V c main_arg4 (ix1 q) := by
    show V c main_arg4 (((cfg0.win 4).blk t).view.emb (ix1 q)) = _
    refine congrArg (V c main_arg4) (funext fun a => Fin.ext ?_)
    match a with
    | ⟨0, _⟩ => show win0_4.index t (0 : Fin 1) * 128 + 1 * q.val = q.val; omega
  exact combine_congr (iblk0 V c 0 t) (iblk0 V c 1 t) (V c main_v24) (V c main_arg0) (iblk0 V c 2 t) (iblk0 V c 3 t)
    (V c main_arg2) (V c main_arg3) (iblk0 V c 4 t) (V c main_arg4) p (⟨t.val * 5000 + p.val, hp⟩ : Fin 100000) q q r0 r1 r2 r3 r4

/-! ## The blocks tile the output -/

/-- An index of the output is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice ((cfg0.win 5).rect t)).set ↔ _
  rw [View.set_slice_whole, Rect.mem_set_unit]
  exact Iff.rfl

/-- Row P of the output lies in the block of point P / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE OUTPUT ARRAY after the region: the first layer of the arrays the region found in its operands. -/
theorem array_eq (c : Dev nD) :
    (dat0 V c).arrAt 5 cfg0.N
      = layer1 (V c main_v24) (V c main_arg0) (V c main_arg2) (V c main_arg3) (V c main_arg4) :=
  (dat0 V c).arrAt_eq_of_cover 5 _ (fun t _ => flushed_eq V c t) cover

/-- The same with the operands' arrays named. -/
theorem array_eq_of (c : Dev nD) (A X : S100000x2.Idx → EReal) (Wl Wr : S2x128.Idx → EReal) (b : S128.Idx → EReal)
    (hA : V c main_v24 = A) (hX : V c main_arg0 = X) (hWl : V c main_arg2 = Wl) (hWr : V c main_arg3 = Wr)
    (hb : V c main_arg4 = b) :
    (dat0 V c).arrAt 5 cfg0.N = layer1 A X Wl Wr b := by
  rw [array_eq V c, hA, hX, hWl, hWr, hb]

end Cert.KernelIdeal.SageRegion0

end
-- ==== Proof.Region1.lean ====
/-
  What the second layer's pallas_call leaves in its output array.

  The call runs over 20 grid points; point t stages rows 5000·t … 5000·t + 4999 of the aggregated rows A [100000, 128] and of
  the first layer's output H [100000, 128], the whole of the two weights [128, 128] and of the bias [128], and writes back
  rows 5000·t … 5000·t + 4999 of the output [100000, 128]. The body stores, at entry (p, q) of its block, the layer's combine
  of row p of the two staged row blocks (no maximum with zero in this layer). Row p of block t is row 5000·t + p of the
  array, the 20 row blocks tile the output, so the output array ends holding, at every (P, q),

      (∑ₖ A(P, k) · Wl(k, q) + ∑ₖ H(P, k) · Wr(k, q)) + b(q),     k over Fin 128.

  Stated at whatever the region finds in its operands' arrays when it is entered.
-/
import proofs.«148940_j29858612642203_1_alg».proof.Proof.Gen.KernelIdeal.Frame
import proofs.«148940_j29858612642203_1_alg».proof.Proof.LibLayerEntry
import Idealize.ShloMosaic.Lib.Pipeline.Value
import Idealize.ShloMosaic.Lib.ValueIdx

set_option maxRecDepth 16384

noncomputable section

namespace Cert.KernelIdeal.SageRegion1

open Cert.KernelIdeal Cert.KernelIdeal.Gen Idealize.ShloMosaic Idealize.ShloMosaic.TcCoe Idealize.SL.Sem
open Idealize.ShloMosaic.ValueIdx SageLayer
open Idealize.ShloMosaic.Pipeline (Dat)

/-! ## The body's stored value at an entry -/

/-- Entry (p, q) of what the body stores: the combine of row p of its two row blocks. -/
theorem pay_apply (x0 x1 : Vec Ideal S5000x128 .f32) (x2 x3 : Vec Ideal S128x128 .f32) (x4 : Vec Ideal S128 .f32)
    (p : Fin 5000) (q : Fin 128) :
    k1_pay1 x0 x1 x2 x3 x4 (ix2 p q) = combine x0 x1 x2 x3 x4 p q := by
  rw [← kernel_combine_apply dot_S5000x128_S128x128_S5000x128_1_0_0_1_n_n rfl x0 x1 x2 x3 x4 bitsLt_bf16_f32
    shapeCasts_S128_S1x128 broadcasts_S1x128_S5000x128 p q]
  unfold k1_pay1
  rw [shapeCast_self, shapeCast_self]

/-! ## The output array as one function of the operands' arrays -/

/-- The second layer at every entry: the combine of the aggregated rows and the first layer's output. -/
def layer2 (A H : S100000x128.Idx → EReal) (Wl Wr : S128x128.Idx → EReal) (b : S128.Idx → EReal) : S100000x128.Idx → EReal :=
  fun i => combine A H Wl Wr b (i 0) (i 1)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 20 points: the two row windows and the output move to row block t, the
    weights and the bias stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Every row block of the output is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

variable (V : (c : Dev nD) → (b : Ref sig .tc) → Buf (Elt Ideal) ((c : Thread nD τ).loc b))

/-- What point t writes back is block t of the second layer of the arrays the region finds. -/
theorem flushed_eq (c : Dev nD) (t : Fin cfg1.N) :
    (dat1 V c).flushed 5 t = ((cfg1.win 5).blk t).view.read (Elt Ideal)
      (layer2 (V c main_v38) (V c main_v25) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  rw [View.read_apply]
  -- row p of block t is row 5000·t + p of the array; the column is unchanged
  have hp : t.val * 5000 + p.val < 100000 := by have := p.isLt; omega
  have h5 : ((cfg1.win 5).blk t).view.emb (ix2 p q) = ix2 (⟨t.val * 5000 + p.val, hp⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [h5]
  show k1_pay1 (iblk1 V c 0 t) (iblk1 V c 1 t) (iblk1 V c 2 t) (iblk1 V c 3 t) (iblk1 V c 4 t) (ix2 p q)
    = combine (V c main_v38) (V c main_v25) (V c main_arg5) (V c main_arg6) (V c main_arg7)
        (⟨t.val * 5000 + p.val, hp⟩ : Fin 100000) q
  refine (pay_apply (iblk1 V c 0 t) (iblk1 V c 1 t) (iblk1 V c 2 t) (iblk1 V c 3 t) (iblk1 V c 4 t) p q).trans ?_
  -- each staged block read where the output's entry says
  have r0 : ∀ k : Fin 128, iblk1 V c 0 t (ix2 p k) = V c main_v38 (ix2 (⟨t.val * 5000 + p.val, hp⟩ : Fin 100000) k) := fun k => by
    show V c main_v38 (((cfg1.win 0).blk t).view.emb (ix2 p k)) = _
    refine congrArg (V c main_v38) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have r1 : ∀ k : Fin 128, iblk1 V c 1 t (ix2 p k) = V c main_v25 (ix2 (⟨t.val * 5000 + p.val, hp⟩ : Fin 100000) k) := fun k => by
    show V c main_v25 (((cfg1.win 1).blk t).view.emb (ix2 p k)) = _
    refine congrArg (V c main_v25) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have r2 : ∀ k : Fin 128, iblk1 V c 2 t (ix2 k q) = V c main_arg5 (ix2 k q) := fun k => by
    show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have r3 : ∀ k : Fin 128, iblk1 V c 3 t (ix2 k q) = V c main_arg6 (ix2 k q) := fun k => by
    show V c main_arg6 (((cfg1.win 3).blk t).view.emb (ix2 k q)) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have r4 : iblk1 V c 4 t (ix1 q) = V c main_arg7 (ix1 q) := by
    show V c main_arg7 (((cfg1.win 4).blk t).view.emb (ix1 q)) = _
    refine congrArg (V c main_arg7) (funext fun a => Fin.ext ?_)
    match a with
    | ⟨0, _⟩ => show win1_4.index t (0 : Fin 1) * 128 + 1 * q.val = q.val; omega
  exact combine_congr (iblk1 V c 0 t) (iblk1 V c 1 t) (V c main_v38) (V c main_v25) (iblk1 V c 2 t) (iblk1 V c 3 t)
    (V c main_arg5) (V c main_arg6) (iblk1 V c 4 t) (V c main_arg7) p (⟨t.val * 5000 + p.val, hp⟩ : Fin 100000) q q r0 r1 r2 r3 r4

/-! ## The blocks tile the output -/

/-- An index of the output is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v39).slice ((cfg1.win 5).rect t)).set ↔ _
  rw [View.set_slice_whole, Rect.mem_set_unit]
  exact Iff.rfl

/-- Row P of the output lies in the block of point P / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE OUTPUT ARRAY after the region: the second layer of the arrays the region found in its operands. -/
theorem array_eq (c : Dev nD) :
    (dat1 V c).arrAt 5 cfg1.N
      = layer2 (V c main_v38) (V c main_v25) (V c main_arg5) (V c main_arg6) (V c main_arg7) :=
  (dat1 V c).arrAt_eq_of_cover 5 _ (fun t _ => flushed_eq V c t) cover

/-- The same with the operands' arrays named. -/
theorem array_eq_of (c : Dev nD) (A H : S100000x128.Idx → EReal) (Wl Wr : S128x128.Idx → EReal) (b : S128.Idx → EReal)
    (hA : V c main_v38 = A) (hH : V c main_v25 = H) (hWl : V c main_arg5 = Wl) (hWr : V c main_arg6 = Wr)
    (hb : V c main_arg7 = b) :
    (dat1 V c).arrAt 5 cfg1.N = layer2 A H Wl Wr b := by
  rw [array_eq V c, hA, hH, hWl, hWr, hb]

end Cert.KernelIdeal.SageRegion1

end
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.LibMeanLaw.lean ====
/-
  The mean over incoming edges, written two ways.

  A graph layer averages the rows gathered along the edges: the sum S(v, k) over the edges into node v is scaled by
  the number of those edges, floored at one. One program divides, S(v, k) / c(v); the other first takes the reciprocal
  1 / c(v) of every count and then multiplies, S(v, k) · (1 / c(v)). On the extended reals a quotient by a NONZERO REAL
  is the product with its reciprocal whatever the numerator, the infinities included, so the two agree at every entry
  as soon as every count is a positive real number. The counts are: each is the maximum with one of a sum of ones
  added onto zero, a real number that is at least one. Nothing is asked of the summed rows S themselves.
-/
import Idealize.ShloMosaic.PureOps.Ideal
import Idealize.ShloMosaic.PureOps.Ideal.Laws
import proofs.«148940_j29858612642203_1_alg».proof.Proof.LibRealArrays

noncomputable section

namespace SageMean

open Idealize.ShloMosaic RealArrays

/-! ## The two words the counts are built from -/

/-- The word of 1.0 denotes the real number one. -/
theorem ofBits_one_f32 : Ideal.ofBits .f32 0x3F800000#32 = 1 := by
  simp [Ideal.ofBits, Ideal.ieee, -EReal.coe_mul]; norm_num

/-- One is a positive real. -/
theorem isPos_oneWord : IsPos (Ideal.ofBits .f32 0x3F800000#32) :=
  ⟨1, one_pos, ofBits_one_f32.trans EReal.coe_one.symm⟩

/-- Zero is a real. -/
theorem isReal_zeroWord : IsReal (Ideal.ofBits .f32 0x00000000#32) := by
  rw [Ideal.ofBits_zero_f32]; exact isReal_zero

/-- A scalar constant spread to any shape holds that constant's value at every index. -/
theorem splat_apply {s : Shape} (h : (⟨0, ![]⟩ : Shape).BroadcastsInDim s ![]) (w : BitVec 32) (j : s.Idx) :
    broadcastInDim s ![] h (constant (F := Ideal) ⟨0, ![]⟩ .f32 w) j = Ideal.ofBits .f32 w := rfl

/-! ## The law at one entry -/

/-- x · (1 / c) = x / c for a positive real c and EVERY extended real x. -/
theorem mul_recip_eq_div {x c : EReal} (hc : IsPos c) :
    x * Ideal.div (Ideal.ofBits .f32 0x3F800000#32) c = Ideal.div x c := by
  obtain ⟨r, hr, rfl⟩ := hc
  rw [ofBits_one_f32, Ideal.div_coe (ne_of_gt hr), Ideal.div_coe (ne_of_gt hr), one_mul]

/-! ## The counts are positive reals -/

/-- The number of edges into each node, floored at one: the maximum with an all-ones array of ones accumulated onto
    zeros along any index array is a positive real at every node. -/
theorem allPos_counts {s si u : Shape} {w : Nat} (d : ScatterDims s si u) (idx : IVec si w)
    (zeros ones : FVec Ideal s .f32) (upd : FVec Ideal u .f32)
    (hz : ∀ j, zeros j = Ideal.ofBits .f32 0x00000000#32) (ho : ∀ j, ones j = Ideal.ofBits .f32 0x3F800000#32)
    (hu : ∀ j, upd j = Ideal.ofBits .f32 0x3F800000#32) :
    AllPos (maximumf (Host.scatterAdd d zeros idx upd) ones) :=
  AllPos.maximumf_right
    (AllReal.hostScatterAdd d idx (fun j => by rw [hz j]; exact isReal_zeroWord)
      (fun j => by rw [hu j]; exact isPos_oneWord.isReal))
    (fun j => by rw [ho j]; exact isPos_oneWord)

/-! ## The law for whole arrays -/

/-- Scaling the summed rows by the reciprocal counts is dividing them by the counts: the counts [n] are laid as a
    column [n, 1] and spread along the rows [n, d] the same way on both sides (the two placements may carry different
    proofs of their side conditions: the entry read does not depend on them). -/
theorem mulf_recip_eq_divf {s1 s2 s3 : Shape} (d1 : Fin s1.rank → Fin s2.rank) (h1 h1' : s1.BroadcastsInDim s2 d1)
    (d2 : Fin s2.rank → Fin s3.rank) (h2 h2' : s2.BroadcastsInDim s3 d2)
    (S : FVec Ideal s3 .f32) (ones cnt : FVec Ideal s1 .f32)
    (ho : ∀ j, ones j = Ideal.ofBits .f32 0x3F800000#32) (hc : AllPos cnt) :
    mulf S (broadcastInDim s3 d2 h2 (broadcastInDim s2 d1 h1 (Host.divf ones cnt)))
      = Host.divf S (broadcastInDim s3 d2 h2' (broadcastInDim s2 d1 h1' cnt)) := by
  funext i
  show S i * Ideal.div (ones _) (cnt _) = Ideal.div (S i) (cnt _)
  rw [ho]
  exact mul_recip_eq_div (hc _)

end SageMean

end
-- ==== Proof.RefLayers.lean ====
/-
  The reference program's two layers, read at an entry.

  The reference computes, for node features x [100000, 2] and edges (src, dst),
      h   = max(mean₁ · Wl1 + x · Wr1 + b1, 0)        mean₁ = (sum of x over the edges into each node) / count
      out = mean₂ · Wl2 + h · Wr2 + b2                 mean₂ = (sum of h over the edges into each node) / count
  with count the number of edges into the node, floored at one. Entry (p, q) of h is the maximum with zero of the
  first layer's linear combine of row p of mean₁ and of x; entry (p, q) of out is the second layer's combine of
  row p of mean₂ and of h. The second mean is also written here over an ARBITRARY feature array, so that another
  program's first layer can be put in h's place.
-/
import proofs.«148940_j29858612642203_1_alg».proof.Proof.Gen.ReferenceIdeal.Read
import proofs.«148940_j29858612642203_1_alg».proof.Proof.LibLayerEntry

set_option maxRecDepth 16384

noncomputable section

namespace Cert.ReferenceIdeal.SageRef

open Cert.ReferenceIdeal Cert.ReferenceIdeal.Gen Cert.ReferenceIdeal.Read Idealize.ShloMosaic Idealize.ShloMosaic.ValueIdx SageLayer

/-- The mean of the rows of a feature array h [100000, 128] over the edges into each node: the rows gathered at the
    edges' sources, accumulated onto zeros at the edges' targets, divided by the floored counts. -/
def mean2 (h : (⟨S100000x128, .f32⟩ : BufTy).Contents (Elt Ideal)) (x1 : (⟨S2x1600000, .i32⟩ : BufTy).Contents (Elt Ideal)) :
    (⟨S100000x128, .f32⟩ : BufTy).Contents (Elt Ideal) :=
  Host.divf (F := Ideal) (φ := .f32)
    (Host.scatterAdd (F := Ideal) (φ := .f32) scatter_S100000x128_S1600000x1_S1600000x128_1_0_0_1 (val_main_v37 (F := Ideal))
      (val_main_v38 (F := Ideal) x1)
      (Host.gather gather_S100000x128_S1600000x1_S1600000x128_1_0_n_n_0_1_1128 h (val_main_v35 (F := Ideal) x1)))
    (val_main_v47 (F := Ideal) x1)

/-- The reference's second mean is that mean of its own first layer. -/
theorem val_main_v48_eq_mean2 (x0 : (⟨S100000x2, .f32⟩ : BufTy).Contents (Elt Ideal)) (x1 : (⟨S2x1600000, .i32⟩ : BufTy).Contents (Elt Ideal))
    (x2 x3 : (⟨S2x128, .f32⟩ : BufTy).Contents (Elt Ideal)) (x4 : (⟨S128, .f32⟩ : BufTy).Contents (Elt Ideal)) :
    val_main_v48 (F := Ideal) x0 x1 x2 x3 x4 = mean2 (val_main_v29 (F := Ideal) x0 x1 x2 x3 x4) x1 := rfl

/-- Entry (p, q) of the first layer: the maximum with zero of the combine of row p of the first mean and of x. -/
theorem h1_apply (x0 : (⟨S100000x2, .f32⟩ : BufTy).Contents (Elt Ideal)) (x1 : (⟨S2x1600000, .i32⟩ : BufTy).Contents (Elt Ideal))
    (x2 x3 : (⟨S2x128, .f32⟩ : BufTy).Contents (Elt Ideal)) (x4 : (⟨S128, .f32⟩ : BufTy).Contents (Elt Ideal))
    (p : Fin 100000) (q : Fin 128) :
    val_main_v29 (F := Ideal) x0 x1 x2 x3 x4 (ix2 p q)
      = max (combine (val_main_v22 (F := Ideal) x0 x1) x0 x2 x3 x4 p q) (Ideal.ofBits .f32 0x00000000#32) := by
  rw [val_main_v29_apply, val_main_call0_v0_apply, val_main_call0_cst_apply, Ideal.maximumf_def, Ideal.ofBits_def]
  refine congrArg (max · (Ideal.ofBits .f32 0x00000000#32)) ?_
  exact host_combine_apply dot_S100000x2_S2x128_S100000x128_1_0_0_1_n_n rfl (val_main_v22 (F := Ideal) x0 x1) x0 x2 x3 x4
    bcast_S128_S1x128_1 bcast_S1x128_S100000x128_0_1 p q

/-- Entry (p, q) of the result: the combine of row p of the second mean and of the first layer. -/
theorem out_apply (x0 : (⟨S100000x2, .f32⟩ : BufTy).Contents (Elt Ideal)) (x1 : (⟨S2x1600000, .i32⟩ : BufTy).Contents (Elt Ideal))
    (x2 x3 : (⟨S2x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (p : Fin 100000) (q : Fin 128) :
    val_main_v54 (F := Ideal) x0 x1 x2 x3 x4 x5 x6 x7 (ix2 p q)
      = combine (val_main_v48 (F := Ideal) x0 x1 x2 x3 x4) (val_main_v29 (F := Ideal) x0 x1 x2 x3 x4) x5 x6 x7 p q :=
  host_combine_apply dot_S100000x128_S128x128_S100000x128_1_0_0_1_n_n rfl (val_main_v48 (F := Ideal) x0 x1 x2 x3 x4)
    (val_main_v29 (F := Ideal) x0 x1 x2 x3 x4) x5 x6 x7 bcast_S128_S1x128_1 bcast_S1x128_S100000x128_0_1 p q

end Cert.ReferenceIdeal.SageRef

end
-- ==== Proof.HostStretches.lean ====
/-
  The kernel program's host operations between its two pallas_calls, read back.

  Before the first call the host computes, from the edge list, the column of edge targets, the column of edge sources (a
  negative source shifted up by the number of nodes), the number of edges into each node floored at one, the reciprocal
  of that count, and the first call's aggregated operand: the features gathered at the sources, accumulated onto zeros at
  the targets, and multiplied by the reciprocal counts spread along the rows. Between the two calls it computes the
  second call's aggregated operand the same way from the first call's output. Multiplying by the reciprocal count is
  dividing by the count (the count is a positive real), which is how the reference writes its two means; apart from that
  the two programs apply the same operations to the same operands. No host operation writes an argument array.
-/
import proofs.«148940_j29858612642203_1_alg».proof.Proof.Gen.KernelIdeal.Frame
import proofs.«148940_j29858612642203_1_alg».proof.Proof.Gen.ReferenceIdeal.Read
import proofs.«148940_j29858612642203_1_alg».proof.Proof.LibMeanLaw
import proofs.«148940_j29858612642203_1_alg».proof.Proof.RefLayers
import Idealize.ShloMosaic.Lib.StableHlo.Run

set_option maxRecDepth 16384

noncomputable section

namespace Cert.KernelIdeal.SageHost

open Cert.KernelIdeal Cert.KernelIdeal.Gen Idealize.ShloMosaic Idealize.ShloMosaic.TcCoe Idealize.SL.Sem
open Idealize.ShloMosaic.StableHlo RealArrays

/-! ## The kernel program's host terms, named -/

/-- The edges' sources, as the edge list's row 0. -/
def srcVec (x1 : (⟨S2x1600000, .i32⟩ : BufTy).Contents (Elt Ideal)) : (⟨S1600000, .i32⟩ : BufTy).Contents (Elt Ideal) :=
  shapeCast S1600000 (extractStridedSlice S1x1600000 ![0, 0] x1 slices_S2x1600000_S1x1600000_0_0) shapeCasts_S1x1600000_S1600000

/-- The edges' targets, as the edge list's row 1. -/
def dstVec (x1 : (⟨S2x1600000, .i32⟩ : BufTy).Contents (Elt Ideal)) : (⟨S1600000, .i32⟩ : BufTy).Contents (Elt Ideal) :=
  shapeCast S1600000 (extractStridedSlice S1x1600000 ![1, 0] x1 slices_S2x1600000_S1x1600000_1_0) shapeCasts_S1x1600000_S1600000

/-- The targets as a column of row numbers. -/
def dstCol (x1 : (⟨S2x1600000, .i32⟩ : BufTy).Contents (Elt Ideal)) : (⟨S1600000x1, .i32⟩ : BufTy).Contents (Elt Ideal) :=
  broadcastInDim S1600000x1 ![0] bcast_S1600000_S1600000x1_0 (dstVec x1)

/-- The sources as a column of row numbers, a negative source shifted up by the number of nodes. -/
def srcCol (x1 : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcVec x1) (broadcastInDim S1600000 ![] bcast_S_S1600000 (constantI S_ 32 0#32)))
      (addi (srcVec x1) (broadcastInDim S1600000 ![] bcast_S_S1600000 (constantI S_ 32 100000#32))) (srcVec x1))

/-- The number of edges into each node, floored at one. -/
def counts (x1 : (⟨S2x1600000, .i32⟩ : BufTy).Contents (Elt Ideal)) : FVec Ideal S100000 .f32 :=
  maximumf
    (Host.scatterAdd (F := Ideal) (φ := .f32) scatter_S100000_S1600000x1_S1600000_n_0_0_1
      (broadcastInDim S100000 ![] bcast_S_S100000 (constant S_ .f32 0x00000000#32)) (dstCol x1)
      (broadcastInDim S1600000 ![] bcast_S_S1600000 (constant S_ .f32 0x3F800000#32)))
    (broadcastInDim S100000 ![] bcast_S_S100000 (constant S_ .f32 0x3F800000#32))

/-- One over the floored count. -/
def recip (x1 : (⟨S2x1600000, .i32⟩ : BufTy).Contents (Elt Ideal)) : FVec Ideal S100000 .f32 :=
  Host.divf (F := Ideal) (broadcastInDim S100000 ![] bcast_S_S100000 (constant S_ .f32 0x3F800000#32)) (counts x1)

/-- The features' rows summed over the edges into each node (two feature columns). -/
def sumRows2 (x0 : FVec Ideal S100000x2 .f32) (x1 : (⟨S2x1600000, .i32⟩ : BufTy).Contents (Elt Ideal)) : FVec Ideal S100000x2 .f32 :=
  Host.scatterAdd (F := Ideal) (φ := .f32) scatter_S100000x2_S1600000x1_S1600000x2_1_0_0_1
    (broadcastInDim S100000x2 ![] bcast_S_S100000x2 (constant S_ .f32 0x00000000#32)) (dstCol x1)
    (Host.gather gather_S100000x2_S1600000x1_S1600000x2_1_0_n_n_0_1_12 x0 (srcCol x1))

/-- The features' rows summed over the edges into each node (128 feature columns). -/
def sumRows128 (h : FVec Ideal S100000x128 .f32) (x1 : (⟨S2x1600000, .i32⟩ : BufTy).Contents (Elt Ideal)) : FVec Ideal S100000x128 .f32 :=
  Host.scatterAdd (F := Ideal) (φ := .f32) scatter_S100000x128_S1600000x1_S1600000x128_1_0_0_1
    (broadcastInDim S100000x128 ![] bcast_S_S100000x128 (constant S_ .f32 0x00000000#32)) (dstCol x1)
    (Host.gather gather_S100000x128_S1600000x1_S1600000x128_1_0_n_n_0_1_1128 h (srcCol x1))

/-! ## The counts are positive reals, and are the reference's -/

theorem counts_pos (x1 : (⟨S2x1600000, .i32⟩ : BufTy).Contents (Elt Ideal)) : AllPos (counts x1) :=
  SageMean.allPos_counts _ _ _ _ _ (fun j => SageMean.splat_apply _ _ j) (fun j => SageMean.splat_apply _ _ j)
    (fun j => SageMean.splat_apply _ _ j)

theorem counts_eq_ref1 (x1 : (⟨S2x1600000, .i32⟩ : BufTy).Contents (Elt Ideal)) :
    counts x1 = Cert.ReferenceIdeal.Read.val_main_v19 (F := Ideal) x1 := rfl

theorem counts_eq_ref2 (x1 : (⟨S2x1600000, .i32⟩ : BufTy).Contents (Elt Ideal)) :
    counts x1 = Cert.ReferenceIdeal.Read.val_main_v45 (F := Ideal) x1 := rfl

theorem sumRows2_eq_ref (x0 : FVec Ideal S100000x2 .f32) (x1 : (⟨S2x1600000, .i32⟩ : BufTy).Contents (Elt Ideal)) :
    sumRows2 x0 x1 = Cert.ReferenceIdeal.Read.val_main_v13 (F := Ideal) x0 x1 := rfl

/-! ## After the first stretch of host operations -/

variable (m : (ℓ : Loc nD τ sig) → Buf (Elt Ideal) ℓ) (ρ : Dev nD → PrngReg)

theorem W1_v1 (c : Dev nD) : W1 m ρ c (Proc.devRef .tc main_v1) = srcVec (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = dstVec (m ((c : Thread nD τ).loc main_arg1)) := by
  show StableHlo.after hostOps0 (W0 m ρ c) (Proc.devRef .tc main_v3) = _
  after_results_simp <;> rfl

theorem W1_v11 (c : Dev nD) : W1 m ρ c (Proc.devRef .tc main_v11) = recip (m ((c : Thread nD τ).loc main_arg1)) := by
  show StableHlo.after hostOps0 (W0 m ρ c) (Proc.devRef .tc main_v11) = _
  after_results_simp <;> rfl

/-- The first call's aggregated operand: the summed rows times the reciprocal counts spread along the rows. -/
theorem W1_v24 (c : Dev nD) : W1 m ρ c (Proc.devRef .tc main_v24)
    = mulf (sumRows2 (m ((c : Thread nD τ).loc main_arg0)) (m ((c : Thread nD τ).loc main_arg1)))
        (broadcastInDim S100000x2 ![0, 1] bcast_S100000x1_S100000x2_0_1
          (broadcastInDim S100000x1 ![0] bcast_S100000_S100000x1_0 (recip (m ((c : Thread nD τ).loc main_arg1))))) := by
  show StableHlo.after hostOps0 (W0 m ρ c) (Proc.devRef .tc main_v24) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

/-- THE FIRST CALL'S AGGREGATED OPERAND IS THE REFERENCE'S FIRST MEAN: times the reciprocal count is over the count. -/
theorem agg1_eq (c : Dev nD) :
    (V1 m ρ c main_v24 : S100000x2.Idx → EReal)
      = Cert.ReferenceIdeal.Read.val_main_v22 (F := Ideal) (m ((c : Thread nD τ).loc main_arg0)) (m ((c : Thread nD τ).loc main_arg1)) := by
  refine (W1_v24 m ρ c).trans ?_
  refine (SageMean.mulf_recip_eq_divf (s1 := S100000) (s2 := S100000x1) (s3 := S100000x2) ![0] bcast_S100000_S100000x1_0
    Cert.ReferenceIdeal.Gen.bcast_S100000_S100000x1_0 ![0, 1] bcast_S100000x1_S100000x2_0_1
    Cert.ReferenceIdeal.Gen.bcast_S100000x1_S100000x2_0_1 (sumRows2 (m ((c : Thread nD τ).loc main_arg0)) (m ((c : Thread nD τ).loc main_arg1)))
    (broadcastInDim S100000 ![] bcast_S_S100000 (constant S_ .f32 0x3F800000#32)) (counts (m ((c : Thread nD τ).loc main_arg1)))
    (fun j => SageMean.splat_apply bcast_S_S100000 _ j) (counts_pos (m ((c : Thread nD τ).loc main_arg1)))).trans ?_
  rw [sumRows2_eq_ref, counts_eq_ref1]
  rfl

/-! ## After the second stretch of host operations -/

/-- The second call's aggregated operand, from what the first call left in its output array. -/
theorem W3_v38 (c : Dev nD) : W3 m ρ c (Proc.devRef .tc main_v38)
    = mulf (sumRows128 (W2 m ρ c (Proc.devRef .tc main_v25)) (m ((c : Thread nD τ).loc main_arg1)))
        (broadcastInDim S100000x128 ![0, 1] bcast_S100000x1_S100000x128_0_1
          (broadcastInDim S100000x1 ![0] bcast_S100000_S100000x1_0 (recip (m ((c : Thread nD τ).loc main_arg1))))) := by
  show StableHlo.after hostOps1 (W2 m ρ c) (Proc.devRef .tc main_v38) = _
  after_results_simp
  rw [W2_of_ne m ρ c main_v1 (by decide), W2_of_ne m ρ c main_v3 (by decide), W2_of_ne m ρ c main_v11 (by decide),
    W1_v1 m ρ c, W1_v3 m ρ c, W1_v11 m ρ c]
  rfl

/-- No operation of the second stretch writes the first call's output. -/
theorem W3_v25 (c : Dev nD) : W3 m ρ c (Proc.devRef .tc main_v25) = W2 m ρ c (Proc.devRef .tc main_v25) := by
  show StableHlo.after hostOps1 (W2 m ρ c) (Proc.devRef .tc main_v25) = _
  after_results_simp

theorem W3_arg5 (c : Dev nD) : W3 m ρ c (Proc.devRef .tc main_arg5) = m ((c : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp <;> rfl
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp <;> rfl
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp <;> rfl

/-- THE SECOND CALL'S AGGREGATED OPERAND IS THE REFERENCE'S SECOND MEAN of what the first call left. -/
theorem agg2_eq (c : Dev nD) :
    (V3 m ρ c main_v38 : S100000x128.Idx → EReal)
      = Cert.ReferenceIdeal.SageRef.mean2 (W2 m ρ c (Proc.devRef .tc main_v25)) (m ((c : Thread nD τ).loc main_arg1)) := by
  refine (W3_v38 m ρ c).trans ?_
  refine (SageMean.mulf_recip_eq_divf (s1 := S100000) (s2 := S100000x1) (s3 := S100000x128) ![0] bcast_S100000_S100000x1_0
    Cert.ReferenceIdeal.Gen.bcast_S100000_S100000x1_0 ![0, 1] bcast_S100000x1_S100000x128_0_1
    Cert.ReferenceIdeal.Gen.bcast_S100000x1_S100000x128_0_1 (sumRows128 (W2 m ρ c (Proc.devRef .tc main_v25)) (m ((c : Thread nD τ).loc main_arg1)))
    (broadcastInDim S100000 ![] bcast_S_S100000 (constant S_ .f32 0x3F800000#32)) (counts (m ((c : Thread nD τ).loc main_arg1)))
    (fun j => SageMean.splat_apply bcast_S_S100000 _ j) (counts_pos (m ((c : Thread nD τ).loc main_arg1)))).trans ?_
  rw [counts_eq_ref2]
  rfl

end Cert.KernelIdeal.SageHost

end
-- ==== Proof.Bridge.lean ====
/-
  The idealized kernel program's result is the reference's.

  Reading the run backwards: the result buffer holds what the second pallas_call leaves in its output array, the second
  layer's combine of (a) its aggregated operand, the mean over the incoming edges of the first call's output, and
  (b) the first call's output itself; the first call's output array is the maximum with zero of the first layer's combine
  of the mean of the features and the features. Each mean is the reference's (times the reciprocal count is over the
  count), each layer is the reference's at every entry, so the result array is the reference's result stage of the
  eight argument arrays.
-/
import proofs.«148940_j29858612642203_1_alg».proof.Proof.KernelRun
import proofs.«148940_j29858612642203_1_alg».proof.Proof.Region0
import proofs.«148940_j29858612642203_1_alg».proof.Proof.Region1
import proofs.«148940_j29858612642203_1_alg».proof.Proof.HostStretches
import proofs.«148940_j29858612642203_1_alg».proof.Proof.RefLayers

set_option maxRecDepth 16384

noncomputable section

namespace Cert.KernelIdeal.SageValue

open Cert.KernelIdeal Cert.KernelIdeal.Gen Idealize.ShloMosaic Idealize.ShloMosaic.TcCoe Idealize.SL.Sem
open Idealize.ShloMosaic.ValueIdx SageLayer
open Cert.ReferenceIdeal.Read (val_main_v22 val_main_v29 val_main_v48 val_main_v54)

/-! ## The two layers are the reference's, at every entry -/

/-- The first layer of the reference's first mean and the features is the reference's first layer. -/
theorem layer1_eq_ref (x0 : (⟨S100000x2, .f32⟩ : BufTy).Contents (Elt Ideal)) (x1 : (⟨S2x1600000, .i32⟩ : BufTy).Contents (Elt Ideal))
    (x2 x3 : (⟨S2x128, .f32⟩ : BufTy).Contents (Elt Ideal)) (x4 : (⟨S128, .f32⟩ : BufTy).Contents (Elt Ideal)) :
    SageRegion0.layer1 (val_main_v22 (F := Ideal) x0 x1) x0 x2 x3 x4 = val_main_v29 (F := Ideal) x0 x1 x2 x3 x4 := by
  funext i
  obtain ⟨p, q, rfl⟩ : ∃ (p : Fin 100000) (q : Fin 128), i = ix2 p q := ⟨i 0, i 1, eq_ix2 i⟩
  exact (Cert.ReferenceIdeal.SageRef.h1_apply x0 x1 x2 x3 x4 p q).symm

/-- The second layer of the reference's second mean and its first layer is the reference's result. -/
theorem layer2_eq_ref (x0 : (⟨S100000x2, .f32⟩ : BufTy).Contents (Elt Ideal)) (x1 : (⟨S2x1600000, .i32⟩ : BufTy).Contents (Elt Ideal))
    (x2 x3 : (⟨S2x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    SageRegion1.layer2 (Cert.ReferenceIdeal.SageRef.mean2 (val_main_v29 (F := Ideal) x0 x1 x2 x3 x4) x1)
        (val_main_v29 (F := Ideal) x0 x1 x2 x3 x4) x5 x6 x7
      = val_main_v54 (F := Ideal) x0 x1 x2 x3 x4 x5 x6 x7 := by
  funext i
  obtain ⟨p, q, rfl⟩ : ∃ (p : Fin 100000) (q : Fin 128), i = ix2 p q := ⟨i 0, i 1, eq_ix2 i⟩
  rw [← Cert.ReferenceIdeal.SageRef.val_main_v48_eq_mean2]
  exact (Cert.ReferenceIdeal.SageRef.out_apply x0 x1 x2 x3 x4 x5 x6 x7 p q).symm

/-! ## The run, read -/

variable (m : (ℓ : Loc nD τ sig) → Buf (Elt Ideal) ℓ) (ρ : Dev nD → PrngReg)

/-- What the first call leaves in its output array is the reference's first layer of the arguments. -/
theorem first_output (c : Dev nD) :
    W2 m ρ c (Proc.devRef .tc main_v25)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W2_arr m ρ c 5).trans (SageRegion0.array_eq_of (V1 m ρ) c _ _ _ _ _ (SageHost.agg1_eq m ρ c) (SageHost.W1_arg0 m ρ c)
    (SageHost.W1_arg2 m ρ c) (SageHost.W1_arg3 m ρ c) (SageHost.W1_arg4 m ρ c))).trans
    (layer1_eq_ref (m ((c : Thread nD τ).loc main_arg0)) (m ((c : Thread nD τ).loc main_arg1)) (m ((c : Thread nD τ).loc main_arg2)) (m ((c : Thread nD τ).loc main_arg3)) (m ((c : Thread nD τ).loc main_arg4)))

/-- THE RESULT: what the fold of the four segments leaves in the result buffer is the reference's result stage of the
    eight argument arrays. -/
theorem result_eq (c : Dev nD) :
    W4 m ρ c (Proc.devRef .tc main_v39)
      = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (SageRegion1.array_eq_of (V3 m ρ) c _ _ _ _ _ (SageHost.agg2_eq m ρ c) (SageHost.W3_v25 m ρ c)
    (SageHost.W3_arg5 m ρ c) (SageHost.W3_arg6 m ρ c) (SageHost.W3_arg7 m ρ c))).trans ?_
  rw [first_output m ρ c]
  exact layer2_eq_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Every weakly fair execution of the idealized kernel program terminates, nothing faulting, with its result at the
    reference's result stage of the argument arrays and the arguments as launched. -/
theorem run : θ_run defs (onTc (τ := τ) (main (F := Ideal))) ⟨m, fun _ => 0, ρ⟩ (fun r => ∀ c : Dev nD,
      r.2.mem ((c.tc : Thread nD τ).loc main_v39)
        = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (SageRun.run_result m ρ)

end Cert.KernelIdeal.SageValue

end
-- ==== Proof.lean ====
/- Two layers of mean aggregation over a graph (100000 nodes, 1600000 edges), a kernel program against a plain reference.

   Each layer is  out = mean · Wl + h · Wr + b,  where row v of mean is the sum of the rows h(src e) over the edges e into v,
   divided by the number of those edges floored at one; the first layer is followed by a maximum with zero, the second
   takes the first layer's output as its h. The kernel program computes the two means on the host, as the sum TIMES
   the reciprocal of the floored count, and each layer's linear combine in a pallas_call over 20 blocks of 5000 rows, with
   matrix-unit products of operands narrowed to bf16; the reference divides the sum BY the floored count and uses two
   dot_generals per layer.

   On the extended reals, with every operation exact and a change of float format the identity, the two agree:
   a quotient by a nonzero real is the product with its reciprocal for EVERY numerator, the infinities included, and the
   floored count is a positive real (a sum of ones added onto zero, then a maximum with one) whatever the float inputs hold;
   a matrix-unit product into a zero accumulator and a dot_general are the same sum over the contracted axis; the two
   sums and the bias are added in the same order; row p of block t is row 5000·t + p, and the 20 blocks tile the rows.
   So the finiteness of the float inputs is never used. The kernel program's idealization rewrote no operation, so that it
   preserves the kernel program is the trivial statement.

   Proof/LibMeanLaw.lean (the quotient law and the counts), Proof/LibLayerEntry.lean (a layer at an entry, both spellings),
   Proof/RefLayers.lean (the reference's two layers at an entry), Proof/Region0.lean and Proof/Region1.lean (what each
   pallas_call leaves in its output array), Proof/HostStretches.lean (the host operations around the calls read back),
   Proof/KernelRun.lean (the run with its result named), Proof/Bridge.lean (the result is the reference's), assembled here
   behind the witnesses of the programs' stated side conditions. -/
import proofs.«148940_j29858612642203_1_alg».proof.Defs
import proofs.«148940_j29858612642203_1_alg».proof.Proof.Gen.Kernel
import proofs.«148940_j29858612642203_1_alg».proof.Proof.Gen.Kernel.Skeleton
import proofs.«148940_j29858612642203_1_alg».proof.Proof.Gen.Kernel.Launch
import proofs.«148940_j29858612642203_1_alg».proof.Proof.Gen.Kernel.Points
import proofs.«148940_j29858612642203_1_alg».proof.Proof.Gen.Kernel.Frame
import proofs.«148940_j29858612642203_1_alg».proof.Proof.Gen.KernelIdeal
import proofs.«148940_j29858612642203_1_alg».proof.Proof.Gen.KernelIdeal.Skeleton
import proofs.«148940_j29858612642203_1_alg».proof.Proof.Gen.KernelIdeal.Launch
import proofs.«148940_j29858612642203_1_alg».proof.Proof.Gen.KernelIdeal.Points
import proofs.«148940_j29858612642203_1_alg».proof.Proof.Gen.KernelIdeal.Frame
import proofs.«148940_j29858612642203_1_alg».proof.Proof.Gen.ReferenceIdeal
import proofs.«148940_j29858612642203_1_alg».proof.Proof.Gen.ReferenceIdeal.Run
import proofs.«148940_j29858612642203_1_alg».proof.Proof.Gen.ReferenceIdeal.Read
import proofs.«148940_j29858612642203_1_alg».proof.Proof.Gen.Pre_finite_inputs
import proofs.«148940_j29858612642203_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- And the reference: its run with the result forgotten. -/
theorem frame_referenceIdeal : Cert.frame_ReferenceIdeal :=
  fun m ρ _ => (θ_run Cert.ReferenceIdeal.defs _ _).mono (fun _ h c => (h c).2) (Cert.ReferenceIdeal.Value.run (F := Ideal) m ρ)

/-- From memories agreeing on the eight arguments both idealized programs end with the reference's result stage of those
    arguments in their result buffers. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v54_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
